-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x64 .f32) (main_arg1 : FVec F S16x2048x64 .f32) (main_arg2 : FVec F S16x2048x64 .f32) (main_arg3 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x64 : Shape := ⟨3, ![16, 2048, 64]⟩
abbrev S16x2048x2048 : Shape := ⟨3, ![16, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x64, .f32⟩
  | .hbm, ⟨5, _⟩ => ⟨S16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .f32⟩
  | .local _ .vmem, ⟨7, _⟩ => ⟨S1x256x2048, .f32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .f32 = 32 ∨ (Rect.block (s := S16x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S16x2048x64.size a
  hwx0_4 : ∀ i : grid0.Coords, EltTy.bits .f32 = 32 ∨ (Rect.block (s := S16x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x2048x2048.size a
  hwx0_5 : ∀ i : grid0.Coords, EltTy.bits .f32 = 32 ∨ (Rect.block (s := S16x2048x2048) S1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x1 : S_.BroadcastsInDim S16x2048x1 (![] : Fin 0 → Fin S16x2048x1.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Masked, clamped softmax attention, one query row at a time, over the extended reals.

  For a query row `q` (64 entries), the keys `K` and values `V` of its batch (2048 rows each) and the row `w` of the mask:
    logit j  = clamp (⟨q, K j⟩ · 1/8) into [-15, 15], times w j
    weight j = exp (logit j − max over the row of logit) · w j
    prob j   = weight j / (Σ over the row of weight + ε)
    mix c    = Σ_j prob j · V j c
  and the two results are `prob` (the attention matrix) and `mix` (the output), row by row. The row maximum is the fold of
  `max` from −∞ over the row, the row sum a finite sum: both are symmetric in the row's entries, so no order of
  evaluation is part of the specification.
-/
import Idealize.ShloMosaic.PureOps.Ideal
import Idealize.ShloMosaic.Lib.ValueIdx

noncomputable section

namespace Cert.Attn

open Idealize.ShloMosaic Idealize.ShloMosaic.ValueIdx

/-- The lower clamp, −15. -/
def lo : EReal := Ideal.ofBits .f32 0xC1700000#32
/-- The upper clamp, 15. -/
def hi : EReal := Ideal.ofBits .f32 0x41700000#32
/-- The scale 1/8 = 1/√64, as the kernel multiplies by it. -/
def scale : EReal := Ideal.ofBits .f32 0x3E000000#32
/-- The ε added to the normalizer. -/
def eps : EReal := Ideal.ofBits .f32 0x358637BD#32
/-- −∞, from which a row's maximum is folded. -/
def negInf : EReal := Ideal.ofBits .f32 0xFF800000#32

/-- The maximum of a row: the fold of `max` from −∞. -/
def rowMax (x : Fin 2048 → EReal) : EReal := (Finset.univ : Finset (Fin 2048)).fold max negInf x

/-- The score of the query row against key `j`. -/
def score (q : Fin 64 → EReal) (K : Fin 2048 → Fin 64 → EReal) (j : Fin 2048) : EReal := ∑ c : Fin 64, q c * K j c

/-- Scaled, clamped into [−15, 15], masked. -/
def logit (q : Fin 64 → EReal) (K : Fin 2048 → Fin 64 → EReal) (w : Fin 2048 → EReal) (j : Fin 2048) : EReal :=
  min hi (max lo (score q K j * scale)) * w j

/-- The unnormalized weight: the exponential of the logit less the row's maximum, masked again. -/
def weight (q : Fin 64 → EReal) (K : Fin 2048 → Fin 64 → EReal) (w : Fin 2048 → EReal) (j : Fin 2048) : EReal :=
  Ideal.exp (logit q K w j - rowMax (logit q K w)) * w j

/-- The attention weight: normalized by the row's sum plus ε. -/
def prob (q : Fin 64 → EReal) (K : Fin 2048 → Fin 64 → EReal) (w : Fin 2048 → EReal) (j : Fin 2048) : EReal :=
  Ideal.div (weight q K w j) ((∑ j' : Fin 2048, weight q K w j') + eps)

/-- The output row: the values mixed by the attention weights. -/
def mix (q : Fin 64 → EReal) (K V : Fin 2048 → Fin 64 → EReal) (w : Fin 2048 → EReal) (c : Fin 64) : EReal :=
  ∑ j : Fin 2048, prob q K w j * V j c

/-! ## The two result arrays as functions of the four argument arrays -/

/-- The shape of queries, keys, values and the output: batch × row × feature. -/
abbrev SQ : Shape := ⟨3, ![16, 2048, 64]⟩
/-- The shape of the mask and of the attention matrix: batch × query row × key row. -/
abbrev SA : Shape := ⟨3, ![16, 2048, 2048]⟩

/-- Row `r` of batch `b` of a batch × row × feature array. -/
def rowOf (x : SQ.Idx → EReal) (b : Fin 16) (r : Fin 2048) : Fin 64 → EReal := fun c => x (ix3 b r c)
/-- Batch `b` of a batch × row × feature array, as rows. -/
def rowsOf (x : SQ.Idx → EReal) (b : Fin 16) : Fin 2048 → Fin 64 → EReal := fun j c => x (ix3 b j c)
/-- Row `r` of batch `b` of the mask. -/
def maskRow (w : SA.Idx → EReal) (b : Fin 16) (r : Fin 2048) : Fin 2048 → EReal := fun j => w (ix3 b r j)

/-- The attention matrix. -/
def attnArr (q k : SQ.Idx → EReal) (w : SA.Idx → EReal) : SA.Idx → EReal :=
  fun i => prob (rowOf q (i 0) (i 1)) (rowsOf k (i 0)) (maskRow w (i 0) (i 1)) (i 2)

/-- The output. -/
def outArr (q k v : SQ.Idx → EReal) (w : SA.Idx → EReal) : SQ.Idx → EReal :=
  fun i => mix (rowOf q (i 0) (i 1)) (rowsOf k (i 0)) (rowsOf v (i 0)) (maskRow w (i 0) (i 1)) (i 2)

end Cert.Attn

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibRowsDot.lean ====
/-
  A matrix times the transpose of another, read at an index, over the extended reals.

  For dimension numbers that contract the left operand's axis 1 with the right operand's axis 1 and keep
  (left axis 0, right axis 0) as the result's axes — rows of the left against rows of the right, the form of
  queries against keys — the contraction at result index `(a, b)` is `Σ_{k < K} l(a, k) · r(b, k)`: the same plain sum for
  a `tpu.matmul` into a zero accumulator and for the host's `dot_general`, whatever the extents. The dimension record
  enters through four coordinate facts about how it reads its operands (for a printed record each holds by
  computation), so the lemmas serve every extent.
-/
import Idealize.ShloMosaic.Lib.ValueIdx
import Idealize.ShloMosaic.PureOps.Ideal.Laws

noncomputable section

namespace Cert.Lib.RowsDot

open Idealize.ShloMosaic Idealize.ShloMosaic.ValueIdx

variable {R K C : Nat} {φ₁ φ₂ : FTy}

/-- How a rows×inner by cols×inner dimension record reads its operands: one contracted axis of extent `K`; at result
    index `i` and contraction position `q` the left operand is read at `(i 0, q)` and the right at `(i 1, q)`. -/
structure Reads (d : DotDims (⟨2, ![R, K]⟩ : Shape) (⟨2, ![C, K]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (i 1).val
  rhs1 : ∀ (i : (⟨2, ![R, C]⟩ : Shape).Idx) (q : d.contr.Idx), (d.rhsIdx i q 1).val = (q ⟨0, by omega⟩).val

variable {d : DotDims (⟨2, ![R, K]⟩ : Shape) (⟨2, ![C, K]⟩ : Shape) (⟨2, ![R, C]⟩ : Shape)}

/-- The sum over the record's contraction index is the sum over the shared inner axis' coordinate. -/
theorem sum_contr (h : Reads d) (l : FVec Ideal (⟨2, ![R, K]⟩ : Shape) φ₁) (r : FVec Ideal (⟨2, ![C, K]⟩ : Shape) φ₂)
    (a : Fin R) (b : Fin C) :
    ∑ q : d.contr.Idx, l (d.lhsIdx (ix2 a b) q) * r (d.rhsIdx (ix2 a b) q) = ∑ k : Fin K, l (ix2 a k) * r (ix2 b k) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 b k := funext fun x => Fin.ext (by
    match x with
    | ⟨0, _⟩ => exact h.rhs0 _ _
    | ⟨1, _⟩ => exact (h.rhs1 _ _).trans hk)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![C, K]⟩ : Shape) φ₂) (a : Fin R) (b : Fin C) :
    FloatOps.matmul d prec l r (constant (⟨2, ![R, C]⟩ : Shape) .f32 0x00000000#32) (ix2 a b)
      = ∑ k : Fin K, l (ix2 a k) * r (ix2 b k) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![C, K]⟩ : Shape) φ₂) (a : Fin R) (b : Fin C) :
    FloatOps.dotGeneral d prec sched l r (ix2 a b) = ∑ k : Fin K, l (ix2 a k) * r (ix2 b k) :=
  (Ideal.dotGeneral_apply d prec sched l r (ix2 a b)).trans (sum_contr h l r a b)

end Cert.Lib.RowsDot

end
-- ==== Proof.KernelRow.lean ====
/-
  The kernel's body, read at an index.

  One grid point holds a block of 256 query rows, all 2048 key rows and value rows of the batch, and the 256 × 2048 block
  of the mask. The body's arithmetic is cut into its stages — scores, logits, row maxima, weights, row sums, attention
  weights — each a vector operation of the stages before it; read at row `p` (and column `j`) each stage is the row-wise
  function of the specification applied to row `p` of the query block, the key rows and row `p` of the mask block.
  The stored attention block is the last stage; the stored output block is its product with the value rows.
-/
import proofs.«169251_j1580547973513_1_alg».proof.Proof.Gen.KernelIdeal.Skeleton
import proofs.«169251_j1580547973513_1_alg».proof.Proof.Spec
import proofs.«169251_j1580547973513_1_alg».proof.Proof.LibColumnLayout
import proofs.«169251_j1580547973513_1_alg».proof.Proof.LibPlainDot
import proofs.«169251_j1580547973513_1_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen
open Idealize.ShloMosaic Idealize.ShloMosaic.ValueIdx Cert.Attn

/-! ## Rows of the blocks -/

/-- Row `p` of the query block. -/
def qRow (P0 : Vec Ideal S1x256x64 .f32) (p : Fin 256) : Fin 64 → EReal := fun c => P0 (ix3 (0 : Fin 1) p c)
/-- The rows of a key or value block. -/
def kRows (P1 : Vec Ideal S1x2048x64 .f32) : Fin 2048 → Fin 64 → EReal := fun j c => P1 (ix3 (0 : Fin 1) j c)
/-- Row `p` of the mask block. -/
def mRow (P3 : Vec Ideal S1x256x2048 .f32) (p : Fin 256) : Fin 2048 → EReal := fun j => P3 (ix3 (0 : Fin 1) p j)

/-! ## The stages of the body -/

variable (P0 : Vec Ideal S1x256x64 .f32) (P1 P2 : Vec Ideal S1x2048x64 .f32) (P3 : Vec Ideal S1x256x2048 .f32)

/-- Queries against keys: the product of the query block with the transposed key block. -/
def kScore : FVec Ideal S256x2048 .f32 :=
  matmul dot_S256x64_S2048x64_S256x2048_1_1_0_0_n_n none
    (truncf .bf16 (shapeCast S256x64 P0 shapeCasts_S1x256x64_S256x64) bitsLt_bf16_f32)
    (truncf .bf16 (shapeCast S2048x64 P1 shapeCasts_S1x2048x64_S2048x64) bitsLt_bf16_f32)
    (constant S256x2048 .f32 0x00000000#32)

/-- The mask block without its leading unit axis. -/
def kMask : FVec Ideal S256x2048 .f32 := shapeCast S256x2048 P3 shapeCasts_S1x256x2048_S256x2048

/-- Scaled, clamped, masked scores. -/
def kLogit : FVec Ideal S256x2048 .f32 :=
  mulf (minimumf (broadcast S256x2048 (Scalar.ofBits .f32 0x41700000#32))
      (maximumf (broadcast S256x2048 (Scalar.ofBits .f32 0xC1700000#32))
        (mulf (kScore P0 P1) (broadcast S256x2048 (Scalar.ofBits .f32 0x3E000000#32)))))
    (kMask P3)

/-- Each row's maximum. -/
def kMax : FVec Ideal S256 .f32 :=
  multiReduction .maximumf [1] S256 (kLogit P0 P1 P3) 0xFF800000#32 reduces_S256x2048_S256 (.inl rfl) rfl

/-- The masked exponentials of the logits less their row's maximum. -/
def kWeight : FVec Ideal S256x2048 .f32 :=
  mulf (exp (subf (kLogit P0 P1 P3)
      (broadcastTo S256x2048 (shapeCast S256x1 (kMax P0 P1 P3) shapeCasts_S256_S256x1) broadcasts_S256x1_S256x2048)))
    (kMask P3)

/-- Each row's sum of weights. -/
def kSum : FVec Ideal S256 .f32 :=
  multiReduction .add [1] S256 (kWeight P0 P1 P3) 0x00000000#32 reduces_S256x2048_S256 (.inl rfl) rfl

/-- The weights over their row's sum plus ε. -/
def kProb : FVec Ideal S256x2048 .f32 :=
  divf (kWeight P0 P1 P3)
    (broadcastTo S256x2048
      (addf (shapeCast S256x1 (kSum P0 P1 P3) shapeCasts_S256_S256x1) (broadcast S256x1 (Scalar.ofBits .f32 0x358637BD#32)))
      broadcasts_S256x1_S256x2048)

/-- The body's attention value is the last stage. -/
theorem pay3_eq : k0_pay3 (F := Ideal) P0 P1 P3 = kProb P0 P1 P3 := rfl

/-! ## How the two dimension records read their operands -/

/-- Queries against keys contract the feature axis of both. -/
theorem readsQK : Cert.Lib.RowsDot.Reads (R := 256) (K := 64) (C := 2048) dot_S256x64_S2048x64_S256x2048_1_1_0_0_n_n where
  rank := rfl
  size := rfl
  lhs0 := fun i q => by
    unfold DotDims.lhsIdx
    rw [dif_neg (show ¬(0 : Fin S256x64.rank) ∈ dot_S256x64_S2048x64_S256x2048_1_1_0_0_n_n.lhsBatch by decide),
      dif_pos (show (0 : Fin S256x64.rank) ∈ dot_S256x64_S2048x64_S256x2048_1_1_0_0_n_n.lhsNonContracting by decide)]
    rfl
  lhs1 := fun i q => dot_S256x64_S2048x64_S256x2048_1_1_0_0_n_n.lhsIdx_val_of_single rfl i q
  rhs0 := fun i q => by
    unfold DotDims.rhsIdx
    rw [dif_neg (show ¬(0 : Fin S2048x64.rank) ∈ dot_S256x64_S2048x64_S256x2048_1_1_0_0_n_n.rhsBatch by decide),
      dif_pos (show (0 : Fin S2048x64.rank) ∈ dot_S256x64_S2048x64_S256x2048_1_1_0_0_n_n.rhsNonContracting by decide)]
    rfl
  rhs1 := fun i q => dot_S256x64_S2048x64_S256x2048_1_1_0_0_n_n.rhsIdx_val_of_single rfl i q

/-- Attention weights against values contract the key axis. -/
theorem readsPV : Cert.Lib.PlainDot.Reads (R := 256) (K := 2048) (C := 64) dot_S256x2048_S2048x64_S256x64_1_0_0_1_n_n where
  rank := rfl
  size := rfl
  lhs0 := fun i q => by
    unfold DotDims.lhsIdx
    rw [dif_neg (show ¬(0 : Fin S256x2048.rank) ∈ dot_S256x2048_S2048x64_S256x64_1_0_0_1_n_n.lhsBatch by decide),
      dif_pos (show (0 : Fin S256x2048.rank) ∈ dot_S256x2048_S2048x64_S256x64_1_0_0_1_n_n.lhsNonContracting by decide)]
    rfl
  lhs1 := fun i q => dot_S256x2048_S2048x64_S256x64_1_0_0_1_n_n.lhsIdx_val_of_single rfl i q
  rhs0 := fun i q => dot_S256x2048_S2048x64_S256x64_1_0_0_1_n_n.rhsIdx_val_of_single rfl i q
  rhs1 := fun i q => by
    unfold DotDims.rhsIdx
    rw [dif_neg (show ¬(1 : Fin S2048x64.rank) ∈ dot_S256x2048_S2048x64_S256x64_1_0_0_1_n_n.rhsBatch by decide),
      dif_pos (show (1 : Fin S2048x64.rank) ∈ dot_S256x2048_S2048x64_S256x64_1_0_0_1_n_n.rhsNonContracting by decide)]
    rfl

/-! ## Each stage at an index -/

/-- Inserting column `k` into the row index `p` is the index `(p, k)`. -/
theorem lift_row (p : Fin 256) (k : Fin 2048) : reduces_S256x2048_S256.lift (ix1 p) k = ix2 p k :=
  funext fun a => Fin.ext (by match a with | ⟨0, _⟩ => rfl | ⟨1, _⟩ => rfl)

theorem kScore_apply (p : Fin 256) (j : Fin 2048) : kScore P0 P1 (ix2 p j) = score (qRow P0 p) (kRows P1) j := by
  unfold kScore
  refine (Cert.Lib.RowsDot.matmul_zero_apply readsQK none _ _ p j).trans ?_
  unfold score qRow kRows
  refine Finset.sum_congr rfl fun c _ => ?_
  show (shapeCast S256x64 P0 shapeCasts_S1x256x64_S256x64) (ix2 p c) * (shapeCast S2048x64 P1 shapeCasts_S1x2048x64_S2048x64) (ix2 j c) = _
  rw [shapeCast_1ab_ab_apply, shapeCast_1ab_ab_apply]

theorem kMask_apply (p : Fin 256) (j : Fin 2048) : kMask P3 (ix2 p j) = mRow P3 p j :=
  shapeCast_1ab_ab_apply P3 _ p j

theorem kLogit_apply (p : Fin 256) (j : Fin 2048) :
    kLogit P0 P1 P3 (ix2 p j) = logit (qRow P0 p) (kRows P1) (mRow P3 p) j := by
  show min (Ideal.ofBits .f32 0x41700000#32) (max (Ideal.ofBits .f32 0xC1700000#32)
      (kScore P0 P1 (ix2 p j) * Ideal.ofBits .f32 0x3E000000#32)) * kMask P3 (ix2 p j) = _
  rw [kScore_apply, kMask_apply]
  rfl

theorem kMax_apply (p : Fin 256) : kMax P0 P1 P3 (ix1 p) = rowMax (logit (qRow P0 p) (kRows P1) (mRow P3 p)) := by
  unfold kMax
  refine (Ideal.multiReduction_maximumf_single (kLogit P0 P1 P3) 0xFF800000#32 reduces_S256x2048_S256 (.inl rfl) rfl (ix1 p)).trans ?_
  unfold rowMax negInf
  refine congrArg (fun f => Finset.fold max (Ideal.ofBits .f32 0xFF800000#32) f (Finset.univ : Finset (Fin 2048))) ?_
  funext k
  exact (congrArg (kLogit P0 P1 P3) (lift_row p k)).trans (kLogit_apply P0 P1 P3 p k)

theorem kWeight_apply (p : Fin 256) (j : Fin 2048) :
    kWeight P0 P1 P3 (ix2 p j) = weight (qRow P0 p) (kRows P1) (mRow P3 p) j := by
  show Ideal.exp (kLogit P0 P1 P3 (ix2 p j)
      - (broadcastTo S256x2048 (shapeCast S256x1 (kMax P0 P1 P3) shapeCasts_S256_S256x1) broadcasts_S256x1_S256x2048) (ix2 p j))
    * kMask P3 (ix2 p j) = _
  rw [Cert.ColumnLayout.broadcastTo_a1_ab_apply, Cert.ColumnLayout.shapeCast_a_a1_apply, kMax_apply, kLogit_apply, kMask_apply]
  rfl

theorem kSum_apply (p : Fin 256) :
    kSum P0 P1 P3 (ix1 p) = ∑ j : Fin 2048, weight (qRow P0 p) (kRows P1) (mRow P3 p) j := by
  unfold kSum
  refine (Ideal.multiReduction_add_single (kWeight P0 P1 P3) 0x00000000#32 reduces_S256x2048_S256 (.inl rfl) rfl (ix1 p)).trans ?_
  refine Finset.sum_congr rfl fun k _ => ?_
  exact (congrArg (kWeight P0 P1 P3) (lift_row p k)).trans (kWeight_apply P0 P1 P3 p k)

theorem kProb_apply (p : Fin 256) (j : Fin 2048) :
    kProb P0 P1 P3 (ix2 p j) = prob (qRow P0 p) (kRows P1) (mRow P3 p) j := by
  show Ideal.div (kWeight P0 P1 P3 (ix2 p j))
    ((broadcastTo S256x2048
      (addf (shapeCast S256x1 (kSum P0 P1 P3) shapeCasts_S256_S256x1) (broadcast S256x1 (Scalar.ofBits .f32 0x358637BD#32)))
      broadcasts_S256x1_S256x2048) (ix2 p j)) = _
  rw [Cert.ColumnLayout.broadcastTo_a1_ab_apply]
  show Ideal.div (kWeight P0 P1 P3 (ix2 p j))
    ((shapeCast S256x1 (kSum P0 P1 P3) shapeCasts_S256_S256x1) (ix2 p (0 : Fin 1)) + Ideal.ofBits .f32 0x358637BD#32) = _
  rw [Cert.ColumnLayout.shapeCast_a_a1_apply, kSum_apply, kWeight_apply]
  rfl

/-! ## The two stored blocks -/

/-- The stored attention block at `(0, p, j)`: the attention weight of query row `p` on key `j`. -/
theorem attn_block_apply (p : Fin 256) (j : Fin 2048) :
    k0_pay4 (F := Ideal) P0 P1 P3 (ix3 (0 : Fin 1) p j) = prob (qRow P0 p) (kRows P1) (mRow P3 p) j := by
  show (shapeCast S1x256x2048 (k0_pay3 (F := Ideal) P0 P1 P3) shapeCasts_S256x2048_S1x256x2048) (ix3 (0 : Fin 1) p j) = _
  rw [shapeCast_ab_1ab_apply, pay3_eq, kProb_apply]

/-- The stored output block at `(0, p, c)`: the value rows mixed by the attention weights of query row `p`. -/
theorem out_block_apply (p : Fin 256) (c : Fin 64) :
    k0_pay1 (F := Ideal) (k0_pay2 P2) (k0_pay5 P0 P1 P3) (ix3 (0 : Fin 1) p c)
      = mix (qRow P0 p) (kRows P1) (kRows P2) (mRow P3 p) c := by
  show (shapeCast S1x256x64
      (matmul dot_S256x2048_S2048x64_S256x64_1_0_0_1_n_n none (k0_pay5 (F := Ideal) P0 P1 P3) (k0_pay2 (F := Ideal) P2)
        (constant S256x64 .f32 0x00000000#32)) shapeCasts_S256x64_S1x256x64) (ix3 (0 : Fin 1) p c) = _
  rw [shapeCast_ab_1ab_apply]
  refine (Cert.Lib.PlainDot.matmul_zero_apply readsPV none _ _ p c).trans ?_
  unfold mix
  refine Finset.sum_congr rfl fun j _ => ?_
  show k0_pay3 (F := Ideal) P0 P1 P3 (ix2 p j) * (shapeCast S2048x64 P2 shapeCasts_S1x2048x64_S2048x64) (ix2 j c) = _
  rw [pay3_eq, kProb_apply, shapeCast_1ab_ab_apply]
  rfl

end Cert.KernelIdeal.Row

end
-- ==== Proof.KernelArr.lean ====
/-
  From blocks to arrays: what the kernel's two result arrays hold after the run.

  Grid point `t` of the 16 × 8 grid works on batch `t / 8` and on the 256 query rows `t % 8 · 256 … t % 8 · 256 + 255` of it:
  its query, mask, output and attention blocks are those rows, its key and value blocks all 2048 rows of the batch. So
  row `p` of the point's query block is query row `(t / 8, t % 8 · 256 + p)`, and what the point writes back — the body's
  row-wise functions of its blocks — is the block of the specification's arrays at those rows. Every index of either
  result lies in the block of exactly the point `(batch) · 8 + (row) / 256`, so the blocks fill the arrays.
-/
import proofs.«169251_j1580547973513_1_alg».proof.Proof.Gen.KernelIdeal.Value
import proofs.«169251_j1580547973513_1_alg».proof.Proof.KernelRow
import Idealize.ShloMosaic.Lib.Pipeline.Value
import Idealize.ShloMosaic.Lib.ValueIdx

noncomputable section

namespace Cert.KernelIdeal.Arr

open Cert.KernelIdeal Cert.KernelIdeal.Gen Cert.KernelIdeal.Row
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps in closed form -/

/-- Point `t` takes batch `t / 8` on every window, the query tile `t % 8` on the query, mask, output and attention
    windows, and the whole batch on the key and value windows (decided over the 128 points). -/
theorem idx_closed : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ (win0_5.index t (0 : Fin 3) = t.val / 8 ∧ win0_5.index t (1 : Fin 3) = t.val % 8 ∧ win0_5.index t (2 : Fin 3) = 0) :=
  (by decide +kernel : ∀ t : Fin grid0.N, _)

theorem point_lt (t : Fin cfg0.N) : t.val < 128 := t.isLt.trans_eq N_0

/-- The batch point `t` works on. -/
def batchOf (t : Fin cfg0.N) : Fin 16 := ⟨t.val / 8, by have := point_lt t; omega⟩
/-- The query row of the batch that row `p` of point `t`'s blocks is. -/
def rowAt (t : Fin cfg0.N) (p : Fin 256) : Fin 2048 := ⟨t.val % 8 * 256 + p.val, by have := p.isLt; omega⟩

/-! ## Where a block's entries sit in their arrays -/

theorem emb0 (t : Fin cfg0.N) (p : Fin 256) (e : Fin 64) :
    ((cfg0.win 0).blk t).view.emb (ix3 (0 : Fin 1) p e) = ix3 (batchOf t) (rowAt t p) e := by
  obtain ⟨⟨e0, e1, e2⟩, -⟩ := idx_closed t
  refine funext fun (a : Fin 3) => Fin.ext ?_
  match a with
  | ⟨0, _⟩ => show win0_0.index t (0 : Fin 3) * 1 + 1 * 0 = t.val / 8; omega
  | ⟨1, _⟩ => show win0_0.index t (1 : Fin 3) * 256 + 1 * p.val = t.val % 8 * 256 + p.val; omega
  | ⟨2, _⟩ => show win0_0.index t (2 : Fin 3) * 64 + 1 * e.val = e.val; omega

theorem emb1 (t : Fin cfg0.N) (j : Fin 2048) (e : Fin 64) :
    ((cfg0.win 1).blk t).view.emb (ix3 (0 : Fin 1) j e) = ix3 (batchOf t) j e := by
  obtain ⟨-, ⟨e0, e1, e2⟩, -⟩ := idx_closed t
  refine funext fun (a : Fin 3) => Fin.ext ?_
  match a with
  | ⟨0, _⟩ => show win0_1.index t (0 : Fin 3) * 1 + 1 * 0 = t.val / 8; omega
  | ⟨1, _⟩ => show win0_1.index t (1 : Fin 3) * 2048 + 1 * j.val = j.val; omega
  | ⟨2, _⟩ => show win0_1.index t (2 : Fin 3) * 64 + 1 * e.val = e.val; omega

theorem emb2 (t : Fin cfg0.N) (j : Fin 2048) (e : Fin 64) :
    ((cfg0.win 2).blk t).view.emb (ix3 (0 : Fin 1) j e) = ix3 (batchOf t) j e := by
  obtain ⟨-, -, ⟨e0, e1, e2⟩, -⟩ := idx_closed t
  refine funext fun (a : Fin 3) => Fin.ext ?_
  match a with
  | ⟨0, _⟩ => show win0_2.index t (0 : Fin 3) * 1 + 1 * 0 = t.val / 8; omega
  | ⟨1, _⟩ => show win0_2.index t (1 : Fin 3) * 2048 + 1 * j.val = j.val; omega
  | ⟨2, _⟩ => show win0_2.index t (2 : Fin 3) * 64 + 1 * e.val = e.val; omega

theorem emb3 (t : Fin cfg0.N) (p : Fin 256) (j : Fin 2048) :
    ((cfg0.win 3).blk t).view.emb (ix3 (0 : Fin 1) p j) = ix3 (batchOf t) (rowAt t p) j := by
  obtain ⟨-, -, -, ⟨e0, e1, e2⟩, -⟩ := idx_closed t
  refine funext fun (a : Fin 3) => Fin.ext ?_
  match a with
  | ⟨0, _⟩ => show win0_3.index t (0 : Fin 3) * 1 + 1 * 0 = t.val / 8; omega
  | ⟨1, _⟩ => show win0_3.index t (1 : Fin 3) * 256 + 1 * p.val = t.val % 8 * 256 + p.val; omega
  | ⟨2, _⟩ => show win0_3.index t (2 : Fin 3) * 2048 + 1 * j.val = j.val; omega

theorem emb4 (t : Fin cfg0.N) (p : Fin 256) (e : Fin 64) :
    ((cfg0.win 4).blk t).view.emb (ix3 (0 : Fin 1) p e) = ix3 (batchOf t) (rowAt t p) e := by
  obtain ⟨-, -, -, -, ⟨e0, e1, e2⟩, -⟩ := idx_closed t
  refine funext fun (a : Fin 3) => Fin.ext ?_
  match a with
  | ⟨0, _⟩ => show win0_4.index t (0 : Fin 3) * 1 + 1 * 0 = t.val / 8; omega
  | ⟨1, _⟩ => show win0_4.index t (1 : Fin 3) * 256 + 1 * p.val = t.val % 8 * 256 + p.val; omega
  | ⟨2, _⟩ => show win0_4.index t (2 : Fin 3) * 64 + 1 * e.val = e.val; omega

theorem emb5 (t : Fin cfg0.N) (p : Fin 256) (j : Fin 2048) :
    ((cfg0.win 5).blk t).view.emb (ix3 (0 : Fin 1) p j) = ix3 (batchOf t) (rowAt t p) j := by
  obtain ⟨-, -, -, -, -, e0, e1, e2⟩ := idx_closed t
  refine funext fun (a : Fin 3) => Fin.ext ?_
  match a with
  | ⟨0, _⟩ => show win0_5.index t (0 : Fin 3) * 1 + 1 * 0 = t.val / 8; omega
  | ⟨1, _⟩ => show win0_5.index t (1 : Fin 3) * 256 + 1 * p.val = t.val % 8 * 256 + p.val; omega
  | ⟨2, _⟩ => show win0_5.index t (2 : Fin 3) * 2048 + 1 * j.val = j.val; omega

/-! ## The rows of a point's input blocks are rows of the argument arrays -/

theorem qRow_blk (c : Dev nD) (t : Fin cfg0.N) (p : Fin 256) :
    qRow (iblk m c 0 t) p = rowOf (V m c main_arg0) (batchOf t) (rowAt t p) := by
  funext e
  show V m c main_arg0 (((cfg0.win 0).blk t).view.emb (ix3 (0 : Fin 1) p e)) = V m c main_arg0 (ix3 (batchOf t) (rowAt t p) e)
  rw [emb0]

theorem kRows_blk (c : Dev nD) (t : Fin cfg0.N) :
    kRows (iblk m c 1 t) = rowsOf (V m c main_arg1) (batchOf t) := by
  funext j e
  show V m c main_arg1 (((cfg0.win 1).blk t).view.emb (ix3 (0 : Fin 1) j e)) = V m c main_arg1 (ix3 (batchOf t) j e)
  rw [emb1]

theorem vRows_blk (c : Dev nD) (t : Fin cfg0.N) :
    kRows (iblk m c 2 t) = rowsOf (V m c main_arg2) (batchOf t) := by
  funext j e
  show V m c main_arg2 (((cfg0.win 2).blk t).view.emb (ix3 (0 : Fin 1) j e)) = V m c main_arg2 (ix3 (batchOf t) j e)
  rw [emb2]

theorem mRow_blk (c : Dev nD) (t : Fin cfg0.N) (p : Fin 256) :
    mRow (iblk m c 3 t) p = maskRow (V m c main_arg3) (batchOf t) (rowAt t p) := by
  funext j
  show V m c main_arg3 (((cfg0.win 3).blk t).view.emb (ix3 (0 : Fin 1) p j)) = V m c main_arg3 (ix3 (batchOf t) (rowAt t p) j)
  rw [emb3]

/-! ## What a point writes back -/

/-- Point `t` writes back block `t` of the attention matrix. -/
theorem flushed5_eq (c : Dev nD) (t : Fin cfg0.N) :
    (dats m 0 c).flushed 5 t = ((cfg0.win 5).blk t).view.read (Elt Ideal)
      (attnArr (V m c main_arg0) (V m c main_arg1) (V m c main_arg3)) := by
  rw [Cert.KernelIdeal.Value.flushed5]
  unfold out0_5
  rw [View.canon_unit_zero hz]
  simp only [View.ld_unit_zero (S := S1x256x64) hz, View.ld_unit_zero (S := S1x2048x64) hz,
    View.ld_unit_zero (S := S1x256x2048) hz]
  refine funext fun (y : S1x256x2048.Idx) => ?_
  obtain ⟨u, p, j, rfl⟩ : ∃ (u : Fin 1) (p : Fin 256) (j : Fin 2048), y = ix3 u p j := ⟨y 0, y 1, y 2, eq_ix3 y⟩
  obtain rfl : u = 0 := Subsingleton.elim _ _
  show k0_pay4 (F := Ideal) (iblk m c 0 t) (iblk m c 1 t) (iblk m c 3 t) (ix3 (0 : Fin 1) p j)
    = attnArr (V m c main_arg0) (V m c main_arg1) (V m c main_arg3) (((cfg0.win 5).blk t).view.emb (ix3 (0 : Fin 1) p j))
  rw [emb5, attn_block_apply (iblk m c 0 t) (iblk m c 1 t) (iblk m c 3 t) p j, qRow_blk, kRows_blk, mRow_blk]
  rfl

/-- Point `t` writes back block `t` of the output. -/
theorem flushed4_eq (c : Dev nD) (t : Fin cfg0.N) :
    (dats m 0 c).flushed 4 t = ((cfg0.win 4).blk t).view.read (Elt Ideal)
      (outArr (V m c main_arg0) (V m c main_arg1) (V m c main_arg2) (V m c main_arg3)) := by
  rw [Cert.KernelIdeal.Value.flushed4]
  unfold out0_4
  rw [View.canon_unit_zero hz]
  simp only [View.ld_unit_zero (S := S1x256x64) hz, View.ld_unit_zero (S := S1x2048x64) hz,
    View.ld_unit_zero (S := S1x256x2048) hz]
  refine funext fun (y : S1x256x64.Idx) => ?_
  obtain ⟨u, p, e, rfl⟩ : ∃ (u : Fin 1) (p : Fin 256) (e : Fin 64), y = ix3 u p e := ⟨y 0, y 1, y 2, eq_ix3 y⟩
  obtain rfl : u = 0 := Subsingleton.elim _ _
  show k0_pay1 (F := Ideal) (k0_pay2 (iblk m c 2 t)) (k0_pay5 (iblk m c 0 t) (iblk m c 1 t) (iblk m c 3 t)) (ix3 (0 : Fin 1) p e)
    = outArr (V m c main_arg0) (V m c main_arg1) (V m c main_arg2) (V m c main_arg3) (((cfg0.win 4).blk t).view.emb (ix3 (0 : Fin 1) p e))
  rw [emb4, out_block_apply (iblk m c 0 t) (iblk m c 1 t) (iblk m c 2 t) (iblk m c 3 t) p e, qRow_blk, kRows_blk, vRows_blk, mRow_blk]
  rfl

/-! ## The blocks fill the arrays -/

theorem mem_blk5 (t : Fin cfg0.N) (i : S16x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_1).slice (win0_5.rect t)).set ↔ _
  rw [View.set_slice_whole, Rect.mem_set_unit]
  exact Iff.rfl

theorem mem_blk4 (t : Fin cfg0.N) (i : S16x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v0_0).slice (win0_4.rect t)).set ↔ _
  rw [View.set_slice_whole, Rect.mem_set_unit]
  exact Iff.rfl

/-- The point whose blocks hold row `r` of batch `b`. -/
def pointOf (b r : Nat) (hb : b < 16) (hr : r < 2048) : Fin cfg0.N := ⟨b * 8 + r / 256, by show _ < grid0.N; rw [N_0]; omega⟩

theorem cover5 (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  have ht : (pointOf (i 0).val (i 1).val hi0 hi1).val = (i 0).val * 8 + (i 1).val / 256 := rfl
  obtain ⟨-, -, -, -, -, e0, e1, e2⟩ := idx_closed (pointOf (i 0).val (i 1).val hi0 hi1)
  refine ⟨pointOf (i 0).val (i 1).val hi0 hi1, flush0_5 _, ?_⟩
  rw [mem_blk5]
  intro a
  match a with
  | ⟨0, _⟩ =>
    show win0_5.index (pointOf (i 0).val (i 1).val hi0 hi1) (0 : Fin 3) * 1 ≤ (i 0).val
      ∧ (i 0).val < win0_5.index (pointOf (i 0).val (i 1).val hi0 hi1) (0 : Fin 3) * 1 + 1
    omega
  | ⟨1, _⟩ =>
    show win0_5.index (pointOf (i 0).val (i 1).val hi0 hi1) (1 : Fin 3) * 256 ≤ (i 1).val
      ∧ (i 1).val < win0_5.index (pointOf (i 0).val (i 1).val hi0 hi1) (1 : Fin 3) * 256 + 256
    omega
  | ⟨2, _⟩ =>
    show win0_5.index (pointOf (i 0).val (i 1).val hi0 hi1) (2 : Fin 3) * 2048 ≤ (i 2).val
      ∧ (i 2).val < win0_5.index (pointOf (i 0).val (i 1).val hi0 hi1) (2 : Fin 3) * 2048 + 2048
    omega

theorem cover4 (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  have ht : (pointOf (i 0).val (i 1).val hi0 hi1).val = (i 0).val * 8 + (i 1).val / 256 := rfl
  obtain ⟨-, -, -, -, ⟨e0, e1, e2⟩, -⟩ := idx_closed (pointOf (i 0).val (i 1).val hi0 hi1)
  refine ⟨pointOf (i 0).val (i 1).val hi0 hi1, flush0_4 _, ?_⟩
  rw [mem_blk4]
  intro a
  match a with
  | ⟨0, _⟩ =>
    show win0_4.index (pointOf (i 0).val (i 1).val hi0 hi1) (0 : Fin 3) * 1 ≤ (i 0).val
      ∧ (i 0).val < win0_4.index (pointOf (i 0).val (i 1).val hi0 hi1) (0 : Fin 3) * 1 + 1
    omega
  | ⟨1, _⟩ =>
    show win0_4.index (pointOf (i 0).val (i 1).val hi0 hi1) (1 : Fin 3) * 256 ≤ (i 1).val
      ∧ (i 1).val < win0_4.index (pointOf (i 0).val (i 1).val hi0 hi1) (1 : Fin 3) * 256 + 256
    omega
  | ⟨2, _⟩ =>
    show win0_4.index (pointOf (i 0).val (i 1).val hi0 hi1) (2 : Fin 3) * 64 ≤ (i 2).val
      ∧ (i 2).val < win0_4.index (pointOf (i 0).val (i 1).val hi0 hi1) (2 : Fin 3) * 64 + 64
    omega

/-! ## The arrays after the run, and the run -/

/-- The attention result ends as the specification's attention matrix of the arguments. -/
theorem final5 (c : Dev nD) : (dats m 0 c).arrAt 5 cfg0.N
    = attnArr (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The output result ends as the specification's output of the arguments. -/
theorem final4 (c : Dev nD) : (dats m 0 c).arrAt 4 cfg0.N
    = outArr (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- Every weakly fair execution of the kernel's program ends with the two results at the specification's arrays of the
    arguments, and the arguments unchanged. -/
theorem run : θ_run defs (onTc (τ := τ) (main (F := Ideal))) ⟨m, fun _ => 0, ρ⟩ fun r => ∀ c : Dev nD,
      r.2.mem ((c : Thread nD τ).loc main_v0_0)
        = outArr (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Arr

end
-- ==== Proof.Consts.lean ====
/-
  The two float words by which the two programs scale the scores, as the extended reals they denote: the kernel
  multiplies by the word of 0.125, the reference divides by the word of 8.0. Dividing an extended real by the real 8 is
  multiplying it by the real 1/8, infinities included, so the two scalings are one function.
-/
import Idealize.ShloMosaic.PureOps.Ideal

noncomputable section

namespace Cert.Attn.Consts

open Idealize.ShloMosaic

/-- The word `0x3E000000` (0.125) denotes the real 1/8. -/
theorem ofBits_eighth : Ideal.ofBits .f32 0x3E000000#32 = ((1 / 8 : ℝ) : EReal) := by
  simp [Ideal.ofBits, Ideal.ieee, -EReal.coe_mul]; norm_num

/-- The word `0x41000000` (8.0) denotes the real 8. -/
theorem ofBits_eight : Ideal.ofBits .f32 0x41000000#32 = ((8 : ℝ) : EReal) := by
  simp [Ideal.ofBits, Ideal.ieee, -EReal.coe_mul]; norm_num

/-- Division by the word of 8.0 is multiplication by the word of 0.125, on every extended real. -/
theorem div_eight (x : EReal) :
    Ideal.div x (Ideal.ofBits .f32 0x41000000#32) = x * Ideal.ofBits .f32 0x3E000000#32 := by
  rw [ofBits_eight, ofBits_eighth]
  exact Ideal.div_coe (by norm_num : (8 : ℝ) ≠ 0) x

end Cert.Attn.Consts

end
-- ==== Proof.RefArr.lean ====
/-
  The reference, read at an index, is the specification.

  The reference computes the same stages on whole arrays — scores of every query row against the keys of its batch,
  divided by 8 (which is the product with 1/8 on every extended real), clamped, masked, each row's maximum, the masked
  exponentials, each row's sum plus ε, the quotient, and its product with the values of the batch. At batch `b`, query row
  `r` each stage is the row-wise function of the specification applied to row `(b, r)` of the queries, the keys of batch
  `b` and row `(b, r)` of the mask.
-/
import proofs.«169251_j1580547973513_1_alg».proof.Proof.Gen.ReferenceIdeal.Read
import proofs.«169251_j1580547973513_1_alg».proof.Proof.Spec
import proofs.«169251_j1580547973513_1_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Attn

variable (x0 x1 x2 : (⟨S16x2048x64, .f32⟩ : BufTy).Contents (Elt Ideal)) (x3 : (⟨S16x2048x2048, .f32⟩ : BufTy).Contents (Elt Ideal))

/-! ## Where each stage reads its operands -/

theorem lidx_v0 (b : Fin 16) (r j : Fin 2048) (k : Fin 64) : lidx_main_v0 (ix3 b r j) k = ix3 b r k :=
  funext fun a => Fin.ext (by match a with | ⟨0, _⟩ => rfl | ⟨1, _⟩ => rfl | ⟨2, _⟩ => rfl)
theorem ridx_v0 (b : Fin 16) (r j : Fin 2048) (k : Fin 64) : ridx_main_v0 (ix3 b r j) k = ix3 b j k :=
  funext fun a => Fin.ext (by match a with | ⟨0, _⟩ => rfl | ⟨1, _⟩ => rfl | ⟨2, _⟩ => rfl)
theorem idx_v6_v7 (b : Fin 16) (r j : Fin 2048) : idx_main_v6 (idx_main_v7 (ix3 b r j)) = ix2 b r :=
  funext fun a => Fin.ext (by match a with | ⟨0, _⟩ => rfl | ⟨1, _⟩ => rfl)
theorem idx_v12_v15 (b : Fin 16) (r j : Fin 2048) : idx_main_v12 (idx_main_v15 (ix3 b r j)) = ix2 b r :=
  funext fun a => Fin.ext (by match a with | ⟨0, _⟩ => rfl | ⟨1, _⟩ => rfl)
theorem idx_v11 (b : Fin 16) (r k : Fin 2048) : idx_main_v11 (ix2 b r) k = ix3 b r k :=
  funext fun a => Fin.ext (by match a with | ⟨0, _⟩ => rfl | ⟨1, _⟩ => rfl | ⟨2, _⟩ => rfl)
theorem lidx_v17 (b : Fin 16) (r : Fin 2048) (c : Fin 64) (k : Fin 2048) : lidx_main_v17 (ix3 b r c) k = ix3 b r k :=
  funext fun a => Fin.ext (by match a with | ⟨0, _⟩ => rfl | ⟨1, _⟩ => rfl | ⟨2, _⟩ => rfl)
theorem ridx_v17 (b : Fin 16) (r : Fin 2048) (c : Fin 64) (k : Fin 2048) : ridx_main_v17 (ix3 b r c) k = ix3 b k c :=
  funext fun a => Fin.ext (by match a with | ⟨0, _⟩ => rfl | ⟨1, _⟩ => rfl | ⟨2, _⟩ => rfl)

/-- Inserting column `k` into the index `(b, r)` is the index `(b, r, k)`. -/
theorem lift_row (h : S16x2048x2048.Reduces [2] S16x2048) (b : Fin 16) (r k : Fin 2048) : h.lift (ix2 b r) k = ix3 b r k :=
  funext fun a => Fin.ext (by match a with | ⟨0, _⟩ => rfl | ⟨1, _⟩ => rfl | ⟨2, _⟩ => rfl)

/-! ## Each stage at an index -/

theorem logit_apply (b : Fin 16) (r j : Fin 2048) :
    val_main_v4 (F := Ideal) x0 x1 x3 (ix3 b r j) = logit (rowOf x0 b r) (rowsOf x1 b) (maskRow x3 b r) j := by
  rw [val_main_v4_apply, val_main_v3_apply, val_main_call0_v4_apply, val_main_call0_v3_apply, val_main_cst_1_apply,
    val_main_call0_v2_apply, val_main_call0_v1_apply, val_main_call0_v0_apply, val_main_cst_0_apply,
    val_main_v2_apply, val_main_v0_apply, val_main_v1_apply, val_main_cst_apply]
  show min (Ideal.ofBits .f32 0x41700000#32) (max (Ideal.ofBits .f32 0xC1700000#32)
      (Ideal.div (∑ k : Fin 64, x0 (lidx_main_v0 (ix3 b r j) k) * x1 (ridx_main_v0 (ix3 b r j) k)) (Ideal.ofBits .f32 0x41000000#32)))
    * x3 (ix3 b r j) = _
  rw [Cert.Attn.Consts.div_eight]
  simp only [lidx_v0, ridx_v0]
  rfl

/-- The witness that the last axis is the one reduced. -/
theorem hR : S16x2048x2048.Reduces [2] S16x2048 := by decide

/-- The host's maximum over the last axis, at `(b, r)`: the fold of `max` from −∞ over row `(b, r)`. -/
theorem hostMax_apply (y : FVec Ideal S16x2048x2048 .f32) (b : Fin 16) (r : Fin 2048) :
    Host.reduce FloatOps.maximumf y (val_main_cst_2 (F := Ideal)) reducesTo_S16x2048x2048_S16x2048_d2 h_S_ (ix2 b r)
      = rowMax (fun k => y (ix3 b r k)) := by
  refine (Host.reduce_eq_fold_single FloatOps.maximumf y (val_main_cst_2 (F := Ideal))
    reducesTo_S16x2048x2048_S16x2048_d2 hR h_S_ (ix2 b r)).trans ?_
  unfold rowMax negInf
  refine congrArg (fun f => Finset.fold max (Ideal.ofBits .f32 0xFF800000#32) f (Finset.univ : Finset (Fin 2048))) ?_
  funext k
  exact congrArg y (lift_row hR b r k)

theorem max_apply (b : Fin 16) (r : Fin 2048) :
    val_main_v5 (F := Ideal) x0 x1 x3 (ix2 b r) = rowMax (logit (rowOf x0 b r) (rowsOf x1 b) (maskRow x3 b r)) := by
  unfold val_main_v5
  refine (hostMax_apply (val_main_v4 (F := Ideal) x0 x1 x3) b r).trans ?_
  exact congrArg rowMax (funext fun k => logit_apply x0 x1 x3 b r k)

theorem weight_apply (b : Fin 16) (r j : Fin 2048) :
    val_main_v10 (F := Ideal) x0 x1 x3 (ix3 b r j) = weight (rowOf x0 b r) (rowsOf x1 b) (maskRow x3 b r) j := by
  rw [val_main_v10_apply, val_main_v9_apply, val_main_v8_apply, val_main_v7_apply, val_main_v6_apply, idx_v6_v7,
    max_apply, logit_apply]
  rfl

theorem sum_apply (b : Fin 16) (r : Fin 2048) :
    val_main_v11 (F := Ideal) x0 x1 x3 (ix2 b r) = ∑ j : Fin 2048, weight (rowOf x0 b r) (rowsOf x1 b) (maskRow x3 b r) j := by
  rw [val_main_v11_apply, val_main_cst_3_apply]
  show Ideal.ofBits .f32 0x00000000#32 + _ = _
  rw [Ideal.ofBits_zero_f32, zero_add]
  refine Finset.sum_congr rfl fun k _ => ?_
  rw [idx_v11, weight_apply]

theorem prob_apply (b : Fin 16) (r j : Fin 2048) :
    val_main_v16 (F := Ideal) x0 x1 x3 (ix3 b r j) = prob (rowOf x0 b r) (rowsOf x1 b) (maskRow x3 b r) j := by
  rw [val_main_v16_apply, val_main_v15_apply, val_main_v14_apply, val_main_v12_apply, val_main_v13_apply,
    val_main_cst_4_apply, idx_v12_v15, sum_apply, weight_apply]
  rfl

theorem mix_apply (b : Fin 16) (r : Fin 2048) (c : Fin 64) :
    val_main_v17 (F := Ideal) x0 x1 x2 x3 (ix3 b r c)
      = mix (rowOf x0 b r) (rowsOf x1 b) (rowsOf x2 b) (maskRow x3 b r) c := by
  rw [val_main_v17_apply]
  unfold mix
  refine Finset.sum_congr rfl fun k _ => ?_
  rw [lidx_v17, ridx_v17, prob_apply]
  rfl

/-! ## The two results -/

/-- The reference's second result is the attention matrix. -/
theorem attn_eq : val_main_v16 (F := Ideal) x0 x1 x3 = attnArr x0 x1 x3 := by
  funext i
  obtain ⟨b, r, j, rfl⟩ : ∃ (b : Fin 16) (r j : Fin 2048), i = ix3 b r j := ⟨i 0, i 1, i 2, eq_ix3 i⟩
  exact prob_apply x0 x1 x3 b r j

/-- The reference's first result is the output. -/
theorem out_eq : val_main_v17 (F := Ideal) x0 x1 x2 x3 = outArr x0 x1 x2 x3 := by
  funext i
  obtain ⟨b, r, c, rfl⟩ : ∃ (b : Fin 16) (r : Fin 2048) (c : Fin 64), i = ix3 b r c := ⟨i 0, i 1, i 2, eq_ix3 i⟩
  exact mix_apply x0 x1 x2 x3 b r c

end Cert.ReferenceIdeal.RefValue

end
-- ==== Proof.lean ====
/-
  Masked, clamped softmax attention: a tiled kernel against the whole-array reference, over the extended reals.

  Both programs compute, for every batch and every query row, the scores of the row against the keys of the batch, scaled
  by 1/8, clamped into [−15, 15] and multiplied by the mask; the exponentials of these less their row's maximum, masked
  again; their quotient by the row's sum plus ε (the attention matrix, the second result); and the values of the batch
  mixed by that row of weights (the output, the first result). The kernel does it 256 query rows at a time, with the
  scale as a product with the word of 0.125 where the reference divides by the word of 8 — the same function of every
  extended real — and with its two matrix products and two row reductions as vector operations whose exact readings
  are the plain sums and the fold of `max` the reference's operations denote. So each side's results are the arrays
  `outArr` and `attnArr` of Proof/Spec.lean of the arguments: the kernel's by reading its body row by row
  (Proof/KernelRow.lean) and placing each grid point's blocks in the arrays (Proof/KernelArr.lean), the reference's by
  reading its operations one after the other at an index (Proof/RefArr.lean). No step uses that the inputs are finite.
  The kernel's idealization rewrote no operation, so nothing is owed for it beyond the three runs.
-/
import proofs.«169251_j1580547973513_1_alg».proof.Defs
import proofs.«169251_j1580547973513_1_alg».proof.Proof.Gen.Kernel
import proofs.«169251_j1580547973513_1_alg».proof.Proof.Gen.Kernel.Skeleton
import proofs.«169251_j1580547973513_1_alg».proof.Proof.Gen.Kernel.Launch
import proofs.«169251_j1580547973513_1_alg».proof.Proof.Gen.Kernel.Points
import proofs.«169251_j1580547973513_1_alg».proof.Proof.Gen.Kernel.Frame
import proofs.«169251_j1580547973513_1_alg».proof.Proof.Gen.KernelIdeal
import proofs.«169251_j1580547973513_1_alg».proof.Proof.Gen.KernelIdeal.Skeleton
import proofs.«169251_j1580547973513_1_alg».proof.Proof.Gen.KernelIdeal.Launch
import proofs.«169251_j1580547973513_1_alg».proof.Proof.Gen.KernelIdeal.Points
import proofs.«169251_j1580547973513_1_alg».proof.Proof.Gen.KernelIdeal.Frame
import proofs.«169251_j1580547973513_1_alg».proof.Proof.Gen.KernelIdeal.Value
import proofs.«169251_j1580547973513_1_alg».proof.Proof.Gen.ReferenceIdeal
import proofs.«169251_j1580547973513_1_alg».proof.Proof.Gen.ReferenceIdeal.Run
import proofs.«169251_j1580547973513_1_alg».proof.Proof.Gen.ReferenceIdeal.Read
import proofs.«169251_j1580547973513_1_alg».proof.Proof.Gen.Pre_finite_inputs
import proofs.«169251_j1580547973513_1_alg».proof.Proof.KernelArr
import proofs.«169251_j1580547973513_1_alg».proof.Proof.RefArr
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's output and attention matrix of arguments that agree. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.out_eq, (hagree c).1, (hagree c).2.1,
      (hagree c).2.2.1, (hagree c).2.2.2]
  · rw [Cert.ReferenceIdeal.Read.val_main_v16_eq, Cert.ReferenceIdeal.RefValue.attn_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
